-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x1024 : Shape := ⟨3, ![8, 2048, 1024]⟩
abbrev S_ : Shape := ⟨0, ![]⟩

class Facts : Prop where
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel

variable [Facts]

def fn {F : FTy → Type} [FloatOps F] (main_arg0 : FVec F S8x2048x1024 .f32) (main_arg1 : FVec F S8x2048x1024 .f32) : IVec S_ 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_c : IVec S_ 1 := constantI S_ 1 1#1
  let main_v3 : IVec S_ 1 := (fun x v => Host.reduce IntOp.andi x v reducesTo_S8x2048x1024_S_d0_1_2 h_S_) main_v2 main_c
  let main_v4 : FVec F S8x2048x1024 .f32 := Host.absf main_arg1
  let main_cst_0 : FVec F S_ .f32 := constant S_ .f32 0x7F800000#32
  let main_v5 : FVec F S8x2048x1024 .f32 := broadcastInDim S8x2048x1024 ![] bcast_S_S8x2048x1024 main_cst_0
  let main_v6 : IVec S8x2048x1024 1 := cmpf .olt main_v4 main_v5
  let main_c_1 : IVec S_ 1 := constantI S_ 1 1#1
  let main_v7 : IVec S_ 1 := (fun x v => Host.reduce IntOp.andi x v reducesTo_S8x2048x1024_S_d0_1_2 h_S_) main_v6 main_c_1
  let main_v8 : IVec S_ 1 := andi main_v3 main_v7
  main_v8
-- ==== Kernel.lean ====
abbrev S8x2048x1024 : Shape := ⟨3, ![8, 2048, 1024]⟩
abbrev S8x8x128 : Shape := ⟨3, ![8, 8, 128]⟩
abbrev S1x2048x1024 : Shape := ⟨3, ![1, 2048, 1024]⟩
abbrev S1x8x128 : Shape := ⟨3, ![1, 8, 128]⟩
abbrev S2048x1024 : Shape := ⟨2, ![2048, 1024]⟩
abbrev S2048 : Shape := ⟨1, ![2048]⟩
abbrev S1x2048 : Shape := ⟨2, ![1, 2048]⟩
abbrev S1 : Shape := ⟨1, ![1]⟩
abbrev S1x1 : Shape := ⟨2, ![1, 1]⟩
abbrev S8x128 : Shape := ⟨2, ![8, 128]⟩
abbrev S_ : Shape := ⟨0, ![]⟩

abbrev nBuf : Space → Nat
  | .hbm => 10
  | .vmem => 6
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .f32⟩
  | .hbm, ⟨2, _⟩ => ⟨S8x8x128, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .local _ .vmem, ⟨0, _⟩ => ⟨S1x2048x1024, .f32⟩
  | .local _ .vmem, ⟨1, _⟩ => ⟨S1x2048x1024, .f32⟩
  | .local _ .vmem, ⟨2, _⟩ => ⟨S1x2048x1024, .f32⟩
  | .local _ .vmem, ⟨3, _⟩ => ⟨S1x2048x1024, .f32⟩
  | .local _ .vmem, ⟨4, _⟩ => ⟨S1x8x128, .f32⟩
  | .local _ .vmem, ⟨5, _⟩ => ⟨S1x8x128, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  reduces_S2048x1024_S2048 : S2048x1024.Reduces [1] S2048
  shapeCasts_S2048_S1x2048 : S2048.ShapeCasts S1x2048
  reduces_S1x2048_S1 : S1x2048.Reduces [1] S1
  shapeCasts_S1_S1x1 : S1.ShapeCasts S1x1
  inpos_S1x1_p0_0 : ∀ a, (![0, 0] : Fin 2 → Nat) a < S1x1.size a
  inb_S1x8x128_S1x8x128_0_0_0 : ∀ a, (![0, 0, 0] : Fin 3 → Nat) a + S1x8x128.size a ≤ S1x8x128.size a
  h_S1x8x128 : 0 < S1x8x128.numel
  shapeCasts_S1x8x128_S8x128 : S1x8x128.ShapeCasts S8x128
  shapeCasts_S8x128_S1x8x128 : S8x128.ShapeCasts S1x8x128
  reducesTo_S8x8x128_S_d0_1_2 : S8x8x128.ReducesTo [0, 1, 2] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x1024.size a ≤ S8x2048x1024.size a
  hwx0_0 : ∀ i : grid0.Coords, EltTy.bits .f32 = 32 ∨ (Rect.block (s := S8x2048x1024) S1x2048x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x1024.size a ≤ S8x2048x1024.size a
  hwx0_1 : ∀ i : grid0.Coords, EltTy.bits .f32 = 32 ∨ (Rect.block (s := S8x2048x1024) S1x2048x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8x128.size a ≤ S8x8x128.size a
  hwx0_2 : ∀ i : grid0.Coords, EltTy.bits .f32 = 32 ∨ (Rect.block (s := S8x8x128) S1x8x128.size (cc0_transform_2 i) (hinb0_2 i)).WholeWords (EltTy.packing .f32)

variable [Facts₀]

abbrev win0_0 : Pipeline.Window sig grid0 :=
  Pipeline.Window.ofSpec (Memref.whole main_arg0) S1x2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2048x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x8x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x2048x1024 : Shape := ⟨3, ![8, 2048, 1024]⟩
abbrev S8x1024x1024 : Shape := ⟨3, ![8, 1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .f32⟩
  | .hbm, ⟨2, _⟩ => ⟨S8x1024x1024, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]

class Facts₀ : Prop where
  reducesTo_S8x1024x1024_S_d0_1_2 : S8x1024x1024.ReducesTo [0, 1, 2] S_
  h_S_ : 0 < S_.numel
  dot_S8x2048x1024_S8x2048x1024_S8x1024x1024_1_1_2_2_0_0_wf : DotDims.WF S8x2048x1024 S8x2048x1024 S8x1024x1024 [1] [1] [2] [2] [0] [0]

variable [Facts₀]

def dot_S8x2048x1024_S8x2048x1024_S8x1024x1024_1_1_2_2_0_0 : DotDims S8x2048x1024 S8x2048x1024 S8x1024x1024 where
  lhsContracting := [1]
  rhsContracting := [1]
  lhsNonContracting := [2]
  rhsNonContracting := [2]
  lhsBatch := [0]
  rhsBatch := [0]
  wf := dot_S8x2048x1024_S8x2048x1024_S8x1024x1024_1_1_2_2_0_0_wf

class Facts : Prop extends Facts₀ where

variable [Facts]
-- ==== Proof.LibSumIdx3.lean ====
/-
  Two general facts about finite sums.

  * A sum over every index of a rank-3 array is the triple sum over its three coordinates (the rank-3 companion of
    the library's `sum_idx2`): `idxEquiv3`, `sum_idx3`.
  * The inclusion of the reals in the extended reals carries a finite sum of reals to the sum of their images:
    `coe_sum`.  (It is additive and sends 0 to 0; the statement follows by induction on the finite set.)
-/
import Idealize.ShloMosaic.Lib.ValueIdx

noncomputable section

open scoped BigOperators

namespace Cert.LibSumIdx3

open Idealize.ShloMosaic Idealize.ShloMosaic.ValueIdx

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- The inclusion of the reals in the extended reals carries a finite sum to the sum of the images. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

end Cert.LibSumIdx3

end
-- ==== Proof.Consts.lean ====
/-
  The two float constants the kernel's host tail and the reference divide by, as the extended reals their bit
  patterns denote: `0x44800000` is 1024 = 8 · 128 (the number of copies of each batch's value in its output tile)
  and `0x4B000000` is 2^23 = 8 · 1024 · 1024 (the number of entries of the correlation array whose mean is taken).
  Both are exact powers of two, so nothing is rounded in either.
-/
import Idealize.ShloMosaic.PureOps.Ideal

noncomputable section

namespace Cert.Corr.Consts

open Idealize.ShloMosaic

/-- The pattern of `1024.0` denotes the real 1024. -/
theorem ofBits_1024 : Ideal.ofBits .f32 0x44800000#32 = ((1024 : ℝ) : EReal) := by
  simp [Ideal.ofBits, Ideal.ieee, -EReal.coe_mul]; norm_num

/-- The pattern of `8388608.0` denotes the real 2^23 = 8388608. -/
theorem ofBits_8388608 : Ideal.ofBits .f32 0x4B000000#32 = ((8388608 : ℝ) : EReal) := by
  simp [Ideal.ofBits, Ideal.ieee, -EReal.coe_mul]

end Cert.Corr.Consts

end
-- ==== Proof.Law.lean ====
/-
  The mathematics of the certificate, with no program in sight.

  Inputs: two arrays `X`, `Y` of shape [8, 2048, 1024] (batch `b`, time `t`, channel).

  * The reference forms, per batch, the correlation matrix `corr[b, j, l] = ∑ t, X[b, t, j] · Y[b, t, l]`
    and returns minus the mean of all 8 · 1024 · 1024 = 2^23 entries: `-( (0 + ∑ corr) / 2^23 )`.
  * The kernel never forms the matrix.  Per batch it sums each row over the channels,
    `rowSum X b t = ∑ j, X[b, t, j]`, multiplies the two row sums and adds over time,
    `batchVal b = ∑ t, rowSum X b t · rowSum Y b t`, and writes that one number to all 8 · 128 = 1024 places of
    the batch's output tile.  The host then adds up all tiles, divides by 1024, negates, and divides by 2^23:
    `( -( (0 + ∑ tile) / 1024 ) ) / 2^23`.

  The law that joins them is distributivity: for fixed `b` and `t`,
    `(∑ j, X[b,t,j]) · (∑ l, Y[b,t,l]) = ∑ j, ∑ l, X[b,t,j] · Y[b,t,l]`,
  and then the finite sums over `t`, `j`, `l` commute, so `∑ b, batchVal b = ∑ b j l, corr[b, j, l]`.  The tile sum
  counts every `batchVal b` 1024 times, which the division by 1024 undoes exactly.  Distributivity fails on the
  extended reals at the infinities, so the law is proved over the reals and used only for arrays all of whose
  entries are real numbers (that is what the finiteness precondition gives); the sums, products, negation and the
  two divisions by nonzero reals all commute with the inclusion of the reals in the extended reals.
-/
import Idealize.ShloMosaic.Lib.ValueIdx
import Idealize.ShloMosaic.PureOps.Ideal.Laws
import proofs.«123775_j34952443855265_1_alg».proof.Proof.LibSumIdx3
import proofs.«123775_j34952443855265_1_alg».proof.Proof.Consts

noncomputable section

open scoped BigOperators

namespace Cert.Corr

open Idealize.ShloMosaic Idealize.ShloMosaic.ValueIdx Cert.LibSumIdx3

/-- The shape of each input: batch × time × channel. -/
abbrev SIn : Shape := ⟨3, ![8, 2048, 1024]⟩
/-- The shape of the kernel's output: one 8 × 128 tile per batch. -/
abbrev STile : Shape := ⟨3, ![8, 8, 128]⟩
/-- The shape of the reference's correlation array: batch × channel × channel. -/
abbrev SCorr : Shape := ⟨3, ![8, 1024, 1024]⟩

/-! ## The two sides, on the extended reals -/

/-- The sum of row `t` of batch `b` over its 1024 channels. -/
def rowSum (X : SIn.Idx → EReal) (b : Fin 8) (t : Fin 2048) : EReal := ∑ j : Fin 1024, X (ix3 b t j)

/-- The kernel's number for batch `b`: over time, the product of the two arrays' row sums. -/
def batchVal (X Y : SIn.Idx → EReal) (b : Fin 8) : EReal := ∑ t : Fin 2048, rowSum X b t * rowSum Y b t

/-- The kernel's output array: every place of batch `b`'s tile holds `batchVal b`. -/
def tile (X Y : SIn.Idx → EReal) : STile.Idx → EReal := fun i => batchVal X Y (i 0)

/-- What the host makes of the tiles: their total from zero, over 1024, negated, over 2^23. -/
def kernelScalar (A : STile.Idx → EReal) : EReal :=
  Ideal.div (-(Ideal.div (Ideal.ofBits .f32 0x00000000#32 + ∑ i : STile.Idx, A i) (Ideal.ofBits .f32 0x44800000#32)))
    (Ideal.ofBits .f32 0x4B000000#32)

/-- The reference's correlation array: contraction over time. -/
def corr (X Y : SIn.Idx → EReal) : SCorr.Idx → EReal :=
  fun i => ∑ k : Fin 2048, X (ix3 (i 0) k (i 1)) * Y (ix3 (i 0) k (i 2))

/-- The reference's result: minus the total of the correlation array from zero over 2^23. -/
def refScalar (X Y : SIn.Idx → EReal) : EReal :=
  -(Ideal.div (Ideal.ofBits .f32 0x00000000#32 + ∑ i : SCorr.Idx, corr X Y i) (Ideal.ofBits .f32 0x4B000000#32))

/-! ## The same quantities over the reals -/

def rowSumR (x : SIn.Idx → ℝ) (b : Fin 8) (t : Fin 2048) : ℝ := ∑ j : Fin 1024, x (ix3 b t j)
def batchValR (x y : SIn.Idx → ℝ) (b : Fin 8) : ℝ := ∑ t : Fin 2048, rowSumR x b t * rowSumR y b t
def corrR (x y : SIn.Idx → ℝ) (i : SCorr.Idx) : ℝ := ∑ k : Fin 2048, x (ix3 (i 0) k (i 1)) * y (ix3 (i 0) k (i 2))

/-- DISTRIBUTIVITY, then commuting finite sums: the sum over all (batch, channel, channel) of the products summed over
    time is the sum over (batch, time) of the product of the two channel sums. -/
theorem sum_outer {β τ γ : Type*} [Fintype β] [Fintype τ] [Fintype γ] (x y : β → τ → γ → ℝ) :
    ∑ b, ∑ j, ∑ l, ∑ t, x b t j * y b t l = ∑ b, ∑ t, (∑ j, x b t j) * (∑ l, y b t l) := by
  refine Finset.sum_congr rfl fun b _ => ?_
  calc ∑ j, ∑ l, ∑ t, x b t j * y b t l
      = ∑ j, ∑ t, ∑ l, x b t j * y b t l := Finset.sum_congr rfl fun j _ => Finset.sum_comm
    _ = ∑ t, ∑ j, ∑ l, x b t j * y b t l := Finset.sum_comm
    _ = ∑ t, (∑ j, x b t j) * (∑ l, y b t l) := Finset.sum_congr rfl fun t _ => by
          rw [Finset.sum_mul]
          exact Finset.sum_congr rfl fun j _ => (Finset.mul_sum _ _ _).symm

/-- The total of the correlation array is the sum of the batches' numbers. -/
theorem corr_total (x y : SIn.Idx → ℝ) : ∑ i : SCorr.Idx, corrR x y i = ∑ b : Fin 8, batchValR x y b := by
  rw [sum_idx3]
  exact sum_outer (fun b t j => x (ix3 b t j)) (fun b t l => y (ix3 b t l))

/-- The total of the tiles counts each batch's number 8 · 128 = 1024 times. -/
theorem tile_total (x y : SIn.Idx → ℝ) :
    ∑ i : STile.Idx, batchValR x y (i 0) = 1024 * ∑ b : Fin 8, batchValR x y b := by
  rw [sum_idx3, Finset.mul_sum]
  refine Finset.sum_congr rfl fun b _ => ?_
  show (∑ _p : Fin 8, ∑ _q : Fin 128, batchValR x y b) = 1024 * batchValR x y b
  simp only [Finset.sum_const, Finset.card_univ, Fintype.card_fin, nsmul_eq_mul]
  push_cast
  ring

/-! ## Arrays of real entries: each quantity on the extended reals is the image of the real one -/

theorem rowSum_coe (x : SIn.Idx → ℝ) (b : Fin 8) (t : Fin 2048) :
    rowSum (fun i => (x i : EReal)) b t = (rowSumR x b t : EReal) := by
  unfold rowSum rowSumR; rw [coe_sum]

theorem batchVal_coe (x y : SIn.Idx → ℝ) (b : Fin 8) :
    batchVal (fun i => (x i : EReal)) (fun i => (y i : EReal)) b = (batchValR x y b : EReal) := by
  unfold batchVal batchValR; rw [coe_sum]
  exact Finset.sum_congr rfl fun t _ => by rw [rowSum_coe, rowSum_coe, EReal.coe_mul]

theorem corr_coe (x y : SIn.Idx → ℝ) (i : SCorr.Idx) :
    corr (fun i => (x i : EReal)) (fun i => (y i : EReal)) i = (corrR x y i : EReal) := by
  unfold corr corrR; rw [coe_sum]
  exact Finset.sum_congr rfl fun k _ => by rw [EReal.coe_mul]

/-! ## The two sides agree on arrays of real entries -/

/-- For inputs whose every entry is a real number, the kernel's scalar of its tiles is the reference's scalar. -/
theorem kernelScalar_tile_eq_refScalar (X Y : SIn.Idx → EReal)
    (hX : ∀ i, ∃ r : ℝ, X i = (r : EReal)) (hY : ∀ i, ∃ r : ℝ, Y i = (r : EReal)) :
    kernelScalar (tile X Y) = refScalar X Y := by
  choose x hx using hX
  choose y hy using hY
  obtain rfl : X = fun i => (x i : EReal) := funext hx
  obtain rfl : Y = fun i => (y i : EReal) := funext hy
  have hk : (∑ i : STile.Idx, tile (fun i => (x i : EReal)) (fun i => (y i : EReal)) i)
      = ((∑ i : STile.Idx, batchValR x y (i 0) : ℝ) : EReal) := by
    rw [coe_sum]; exact Finset.sum_congr rfl fun i _ => batchVal_coe x y (i 0)
  have hr : (∑ i : SCorr.Idx, corr (fun i => (x i : EReal)) (fun i => (y i : EReal)) i)
      = ((∑ i : SCorr.Idx, corrR x y i : ℝ) : EReal) := by
    rw [coe_sum]; exact Finset.sum_congr rfl fun i _ => corr_coe x y i
  unfold kernelScalar refScalar
  rw [hk, hr, tile_total, corr_total, Ideal.ofBits_zero_f32, zero_add, zero_add, Consts.ofBits_1024, Consts.ofBits_8388608]
  simp only [Ideal.div_coe (by norm_num : (1024 : ℝ) ≠ 0), Ideal.div_coe (by norm_num : (8388608 : ℝ) ≠ 0)]
  rw [← EReal.coe_mul, ← EReal.coe_neg, ← EReal.coe_mul, ← EReal.coe_mul, ← EReal.coe_neg]
  refine congrArg (fun r : ℝ => (r : EReal)) ?_
  ring

end Cert.Corr

end
-- ==== Proof.Finite.lean ====
/-
  What the precondition gives: every entry of both inputs is a real number.

  The precondition is `jnp.all(|x| < +∞) and jnp.all(|y| < +∞)`, stated as "the one-bit result is 1".  An `and` that
  is 1 has both operands 1; a reduction by `and` over every axis that is 1 met a 1 at every index; and at one index
  the bit says `max x (-x) < ⊤` on the extended reals (the pattern `0x7F800000` denotes `⊤`).  An extended real
  whose absolute value is below `⊤` is neither `⊤` nor `⊥`, hence a real number.
-/
import proofs.«123775_j34952443855265_1_alg».proof.Proof.Gen.Pre_finite_inputs
import Idealize.ShloMosaic.Lib.ReduceAll
import Idealize.ShloMosaic.Lib.ValueIdx
import Idealize.ShloMosaic.PureOps.Ideal.Laws

noncomputable section

namespace Cert.Corr.Finite

open Idealize.ShloMosaic Idealize.ShloMosaic.ValueIdx Cert.Pre_finite_inputs

/-- The scalar shape has one index. -/
instance : Subsingleton S_.Idx := ⟨fun _ _ => funext fun d => d.elim0⟩

/-- The pattern of `+inf` denotes the top of the extended reals. -/
theorem ofBits_inf : Ideal.ofBits .f32 0x7F800000#32 = ⊤ := by
  simp [Ideal.ofBits, Ideal.ieee]

/-- An extended real whose absolute value `max x (-x)` is below `⊤` is a real number. -/
theorem real_of_abs_lt_top (x : EReal) (h : max x (-x) < ⊤) : ∃ r : ℝ, x = (r : EReal) := by
  induction x using EReal.rec with
  | bot => simp at h
  | top => simp at h
  | coe r => exact ⟨r, rfl⟩

/-- One bit of the comparison `|x| < +inf` being 1 makes `x` a real number. -/
theorem real_of_bit (x : EReal)
    (e : Ideal.cmp .olt (max x (-x)) (Ideal.ofBits .f32 0x7F800000#32) = 1#1) : ∃ r : ℝ, x = (r : EReal) := by
  rw [ofBits_inf] at e
  refine real_of_abs_lt_top x ?_
  by_contra hn
  simp [Ideal.cmp, hn] at e

/-- Under the precondition every entry of both inputs is a real number. -/
theorem entries_real (X Y : FVec Ideal S8x2048x1024 .f32) (h : fn (F := Ideal) X Y = fun _ => 1#1) :
    (∀ i, ∃ r : ℝ, X i = (r : EReal)) ∧ (∀ i, ∃ r : ℝ, Y i = (r : EReal)) := by
  have h0 := congrFun h ix0
  dsimp only [fn] at h0
  obtain ⟨hx, hy⟩ := IntOp.andi_eq_one.1 h0
  exact ⟨fun i => real_of_bit (X i) (Host.reduce_andi_all _ _ _ _ _ hx i),
    fun i => real_of_bit (Y i) (Host.reduce_andi_all _ _ _ _ _ hy i)⟩

end Cert.Corr.Finite

end
-- ==== Proof.RefValue.lean ====
/-
  The reference's result is `refScalar` of its two arguments.

  Read one host operation at a time, the reference's result at its one (rank-0) index is
    negate ( divide ( 0 + ∑ over every index of the [8, 1024, 1024] product array , 2^23 ) ),
  and the product array at (b, j, l) is the contraction over time `∑ k, X[b, k, j] · Y[b, k, l]`: the batch axis is
  carried, axis 1 of both operands is contracted, and the two channel axes remain.  That is `Cert.Corr.corr`, so the
  whole term is `Cert.Corr.refScalar`.
-/
import proofs.«123775_j34952443855265_1_alg».proof.Proof.Gen.ReferenceIdeal.Read
import proofs.«123775_j34952443855265_1_alg».proof.Proof.Law

noncomputable section

open scoped BigOperators

namespace Cert.Corr.Ref

open Idealize.ShloMosaic Idealize.ShloMosaic.ValueIdx Cert.ReferenceIdeal Cert.ReferenceIdeal.Read Cert.Corr

/-- The left operand's index at product index (b, j, l) and time k is (b, k, j). -/
theorem lidx_eq (i : S8x1024x1024.Idx) (k : Fin 2048) : lidx_main_v0 i k = ix3 (i 0) k (i 1) :=
  funext fun a => by match a with | ⟨0, _⟩ => rfl | ⟨1, _⟩ => rfl | ⟨2, _⟩ => rfl

/-- The right operand's index at product index (b, j, l) and time k is (b, k, l). -/
theorem ridx_eq (i : S8x1024x1024.Idx) (k : Fin 2048) : ridx_main_v0 i k = ix3 (i 0) k (i 2) :=
  funext fun a => by match a with | ⟨0, _⟩ => rfl | ⟨1, _⟩ => rfl | ⟨2, _⟩ => rfl

/-- The batched product is the correlation array. -/
theorem val_main_v0_eq_corr (X Y : FVec Ideal S8x2048x1024 .f32) (i : S8x1024x1024.Idx) :
    val_main_v0 (F := Ideal) X Y i = corr X Y i := by
  rw [val_main_v0_apply]
  exact Finset.sum_congr rfl fun k _ => by rw [lidx_eq, ridx_eq]; rfl

/-- The reference's result, at its one index, is `refScalar`. -/
theorem val_main_v3_eq_refScalar (X Y : FVec Ideal S8x2048x1024 .f32) (i : S_.Idx) :
    val_main_v3 (F := Ideal) X Y i = refScalar X Y := by
  rw [val_main_v3_apply, val_main_v2_apply, val_main_v1_apply, val_main_cst_0_apply, val_main_cst_apply]
  simp only [Ideal.hostNegf_def, Ideal.negf_def, Ideal.hostDivf_def, Ideal.ofBits_def, val_main_v0_eq_corr]
  rfl

end Cert.Corr.Ref

end
-- ==== Proof.KernelPay.lean ====
/-
  What the kernel body stores, read at one place of the output tile.

  The body loads one batch's slice of each input (a [1, 2048, 1024] block), drops the unit axis, sums each of the
  2048 rows over its 1024 lanes (for both inputs), multiplies the two vectors of row sums entry by entry, adds the
  2048 products up, and broadcasts that one number over the [8, 128] tile (a unit axis put back in front).  So at
  every place (u, p, q) of the tile the stored value is
      ∑ t, (∑ j, x0[0, t, j]) · (∑ l, x1[0, t, l]),
  independent of the place.  Each step below reads one operation of the body at an index: the three casts that add
  or drop a leading unit axis, the two lane sums as finite sums over the reduced coordinate, the entrywise product,
  the extraction of the one entry of a [1, 1] vector, and the broadcast of a scalar.
-/
import proofs.«123775_j34952443855265_1_alg».proof.Proof.Gen.KernelIdeal.Skeleton
import Idealize.ShloMosaic.Lib.ValueIdx
import Idealize.ShloMosaic.Lib.ValueLayout
import Idealize.ShloMosaic.PureOps.Ideal.Laws

noncomputable section

open scoped BigOperators

namespace Cert.Corr.Pay

open Idealize.ShloMosaic Idealize.ShloMosaic.ValueIdx Cert.KernelIdeal Cert.KernelIdeal.Gen

/-- The sum over the lanes of a [2048, 1024] vector, at row `t`, is the sum of that row's 1024 entries. -/
theorem laneSum_rows (src : FVec Ideal S2048x1024 .f32) (h : S2048x1024.Reduces [1] S2048) (hφ : FKind.Formats .f32)
    (hacc : (0x00000000#32 : BitVec 32) = FKind.add.neutral .f32 hφ) (t : Fin 2048) :
    multiReduction (F := Ideal) .add [1] S2048 src 0x00000000#32 h hφ hacc (ix1 t) = ∑ j : Fin 1024, src (ix2 t j) := by
  refine (Ideal.multiReduction_add_single src 0x00000000#32 h hφ hacc (ix1 t)).trans ?_
  exact Finset.sum_congr rfl fun j _ => congrArg src
    (funext fun a => Fin.ext (by match a with | ⟨0, _⟩ => rfl | ⟨1, _⟩ => rfl))

/-- The sum over the lanes of a [1, 2048] vector, at its one row, is the sum of its 2048 entries. -/
theorem laneSum_time (src : FVec Ideal S1x2048 .f32) (h : S1x2048.Reduces [1] S1) (hφ : FKind.Formats .f32)
    (hacc : (0x00000000#32 : BitVec 32) = FKind.add.neutral .f32 hφ) (u : Fin 1) :
    multiReduction (F := Ideal) .add [1] S1 src 0x00000000#32 h hφ hacc (ix1 u) = ∑ t : Fin 2048, src (ix2 u t) := by
  refine (Ideal.multiReduction_add_single src 0x00000000#32 h hφ hacc (ix1 u)).trans ?_
  exact Finset.sum_congr rfl fun t _ => congrArg src
    (funext fun a => Fin.ext (by match a with | ⟨0, _⟩ => rfl | ⟨1, _⟩ => rfl))

/-- The entry of a [1, 1] vector extracted at position (0, 0) is the vector at that index. -/
theorem extract_zero_zero {α : Type} (v : S1x1.Idx → α) (h : ∀ a, (![0, 0] : Fin 2 → Nat) a < S1x1.size a) :
    extractAt ![0, 0] v h = v (ix2 (0 : Fin 1) (0 : Fin 1)) :=
  congrArg v (funext fun a => Fin.ext (by match a with | ⟨0, _⟩ => rfl | ⟨1, _⟩ => rfl))

/-- THE STORED VALUE at place (u, p, q) of the tile: over time, the product of the two blocks' row sums. -/
theorem pay_apply (x0 x1 : Vec Ideal S1x2048x1024 .f32) (u : Fin 1) (p : Fin 8) (q : Fin 128) :
    k0_pay1 (F := Ideal) x0 x1 (ix3 u p q)
      = ∑ t : Fin 2048, (∑ j : Fin 1024, x0 (ix3 (0 : Fin 1) t j)) * (∑ l : Fin 1024, x1 (ix3 (0 : Fin 1) t l)) := by
  unfold k0_pay1
  refine (shapeCast_ab_1ab_apply _ _ u p q).trans ?_
  refine (broadcast_apply _ _).trans ?_
  refine (extract_zero_zero _ _).trans ?_
  refine (shapeCast_a_1a_apply _ _ (0 : Fin 1) (0 : Fin 1)).trans ?_
  refine (laneSum_time _ _ _ _ (0 : Fin 1)).trans ?_
  refine Finset.sum_congr rfl fun t _ => ?_
  refine (shapeCast_a_1a_apply _ _ (0 : Fin 1) t).trans ?_
  refine (mulf_apply _ _ _).trans ?_
  refine congrArg₂ (· * ·) ?_ ?_
  · refine (laneSum_rows _ _ _ _ t).trans ?_
    exact Finset.sum_congr rfl fun j _ => shapeCast_1ab_ab_apply _ _ t j
  · refine (laneSum_rows _ _ _ _ t).trans ?_
    exact Finset.sum_congr rfl fun l _ => shapeCast_1ab_ab_apply _ _ t l

end Cert.Corr.Pay

end
-- ==== Proof.KernelBlock.lean ====
/-
  The kernel's output array after the region: every place of batch `b`'s tile holds `batchVal b`.

  The grid has one point per batch.  At point `t` each input window stages the [1, 2048, 1024] block whose batch
  coordinate is `t` (block indices (t, 0, 0)), and the output window writes back the [1, 8, 128] block with block
  indices (t, 0, 0).  A block's coordinate on an axis is (block index) × (block extent) + (coordinate inside the
  block), so place (0, t', j) of the staged input block is entry (t, t', j) of the input array, and place (u, p, q)
  of the written block is entry (t, p, q) of the output array.  The body's stored value (the payload read at an
  index) therefore is `batchVal` of batch `t`, which is what `tile` holds at (t, p, q).  The eight blocks tile the
  [8, 8, 128] array (entry (b, p, q) lies in point `b`'s block), so the array ends holding `tile` everywhere.
-/
import proofs.«123775_j34952443855265_1_alg».proof.Proof.Gen.KernelIdeal.Frame
import Idealize.ShloMosaic.Lib.Pipeline.Value
import proofs.«123775_j34952443855265_1_alg».proof.Proof.KernelPay
import proofs.«123775_j34952443855265_1_alg».proof.Proof.Law

set_option maxRecDepth 16384

noncomputable section

open scoped BigOperators

namespace Cert.Corr.Block

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Corr

variable (m : (ℓ : Loc nD τ sig) → Buf (Elt Ideal) ℓ)

/-- The zero offsets of a whole-block access, however they are spelt. -/
theorem zero_offsets : (![0, 0, 0] : Fin 3 → Nat) = fun _ => 0 := funext fun a => by fin_cases a <;> rfl

/-- What the body leaves in the output block, at any place: over time, the product of the two staged blocks' row sums. -/
theorem out_apply (x0 x1 : Vec Ideal S1x2048x1024 .f32) (y : S1x8x128.Idx) :
    out0_2 (F := Ideal) x0 x1 y
      = ∑ t : Fin 2048, (∑ j : Fin 1024, x0 (ix3 (0 : Fin 1) t j)) * (∑ l : Fin 1024, x1 (ix3 (0 : Fin 1) t l)) := by
  unfold out0_2
  rw [View.canon_unit_zero zero_offsets]
  simp only [View.ld_unit_zero (S := S1x2048x1024) zero_offsets]
  obtain ⟨u, p, q, rfl⟩ : ∃ (u : Fin 1) (p : Fin 8) (q : Fin 128), y = ix3 u p q := ⟨y 0, y 1, y 2, eq_ix3 y⟩
  exact Pay.pay_apply x0 x1 u p q

/-- The three windows' block indices at grid point `t` are (t, 0, 0), decided over the eight points. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0 :=
  (by decide +kernel : ∀ t : Fin grid0.N, _)

/-- WHAT POINT `t` WRITES BACK is block `t` of `tile` of the input arrays as the region finds them. -/
theorem flushed_eq (c : Dev nD) (t : Fin cfg0.N) :
    (dats m 0 c).flushed 2 t
      = ((cfg0.win 2).blk t).view.read (Elt Ideal) (tile (V m c main_arg0) (V m c main_arg1)) := by
  show (cfg0.win 2).cut (grid0.coords t) ((dats m 0 c).after 2 t) = _
  rw [after0_2]
  funext y
  show out0_2 (iblk m c 0 t) (iblk m c 1 t) y
    = tile (V m c main_arg0) (V m c main_arg1) (((cfg0.win 2).blk t).view.emb y)
  refine (out_apply (iblk m c 0 t) (iblk m c 1 t) y).trans ?_
  obtain ⟨a0, a1, a2, b0, b1, b2, o0, o1, o2⟩ := idx_facts t
  have hy : (y 0).val < 1 := (y 0).isLt
  unfold tile batchVal rowSum
  refine Finset.sum_congr rfl fun t' _ => congrArg₂ (· * ·) (Finset.sum_congr rfl fun j _ => ?_)
    (Finset.sum_congr rfl fun l _ => ?_)
  · show V m c main_arg0 (((cfg0.win 0).blk t).view.emb (ix3 (0 : Fin 1) t' j))
      = V m c main_arg0 (ix3 ((((cfg0.win 2).blk t).view.emb y) 0) t' j)
    refine congrArg _ (funext fun a => Fin.ext ?_)
    match a with
    | ⟨0, _⟩ =>
      show win0_0.index t (0 : Fin 3) * 1 + 1 * 0 = win0_2.index t (0 : Fin 3) * 1 + 1 * (y 0).val
      omega
    | ⟨1, _⟩ =>
      show win0_0.index t (1 : Fin 3) * 2048 + 1 * t'.val = t'.val
      omega
    | ⟨2, _⟩ =>
      show win0_0.index t (2 : Fin 3) * 1024 + 1 * j.val = j.val
      omega
  · show V m c main_arg1 (((cfg0.win 1).blk t).view.emb (ix3 (0 : Fin 1) t' l))
      = V m c main_arg1 (ix3 ((((cfg0.win 2).blk t).view.emb y) 0) t' l)
    refine congrArg _ (funext fun a => Fin.ext ?_)
    match a with
    | ⟨0, _⟩ =>
      show win0_1.index t (0 : Fin 3) * 1 + 1 * 0 = win0_2.index t (0 : Fin 3) * 1 + 1 * (y 0).val
      omega
    | ⟨1, _⟩ =>
      show win0_1.index t (1 : Fin 3) * 2048 + 1 * t'.val = t'.val
      omega
    | ⟨2, _⟩ =>
      show win0_1.index t (2 : Fin 3) * 1024 + 1 * l.val = l.val
      omega

/-- An index of the output array is in point `t`'s block iff each coordinate is in the block's range on its axis. -/
theorem mem_blk (t : Fin cfg0.N) (i : S8x8x128.Idx) :
    i ∈ ((cfg0.win 2).blk t).view.set
      ↔ ∀ a : Fin 3, win0_2.index t a * S1x8x128.size a ≤ (i a).val
          ∧ (i a).val < win0_2.index t a * S1x8x128.size a + S1x8x128.size a := by
  show i ∈ ((View.whole main_v0).slice (win0_2.rect t)).set ↔ _
  rw [View.set_slice_whole, Rect.mem_set_unit]
  exact Iff.rfl

/-- THE COVER: entry (b, p, q) of the output array is in the block point `b` writes back. -/
theorem cover (i : S8x8x128.Idx) :
    ∃ t : Fin cfg0.N, (cfg0.win 2).flush t = true ∧ i ∈ ((cfg0.win 2).blk t).view.set := by
  have hi0 : (i 0).val < 8 := (i 0).isLt
  have hi1 : (i 1).val < 8 := (i 1).isLt
  have hi2 : (i 2).val < 128 := (i 2).isLt
  have hN : (i 0).val < cfg0.N := by show (i 0).val < grid0.N; rw [N_0]; exact hi0
  obtain ⟨-, -, -, -, -, -, o0, o1, o2⟩ := idx_facts ⟨(i 0).val, hN⟩
  have o0' : win0_2.index ⟨(i 0).val, hN⟩ (0 : Fin 3) = (i 0).val := o0
  refine ⟨⟨(i 0).val, hN⟩, flush0_2 _, ?_⟩
  rw [mem_blk]
  intro a
  match a with
  | ⟨0, _⟩ =>
    show win0_2.index ⟨(i 0).val, hN⟩ (0 : Fin 3) * 1 ≤ (i 0).val
      ∧ (i 0).val < win0_2.index ⟨(i 0).val, hN⟩ (0 : Fin 3) * 1 + 1
    omega
  | ⟨1, _⟩ =>
    show win0_2.index ⟨(i 0).val, hN⟩ (1 : Fin 3) * 8 ≤ (i 1).val
      ∧ (i 1).val < win0_2.index ⟨(i 0).val, hN⟩ (1 : Fin 3) * 8 + 8
    omega
  | ⟨2, _⟩ =>
    show win0_2.index ⟨(i 0).val, hN⟩ (2 : Fin 3) * 128 ≤ (i 2).val
      ∧ (i 2).val < win0_2.index ⟨(i 0).val, hN⟩ (2 : Fin 3) * 128 + 128
    omega

/-- THE OUTPUT ARRAY after the region is `tile` of the input arrays as the region finds them. -/
theorem final (c : Dev nD) :
    (dats m 0 c).arrAt 2 cfg0.N = tile (V m c main_arg0) (V m c main_arg1) :=
  (dats m 0 c).arrAt_eq_of_cover 2 _ (fun t _ => flushed_eq m c t) cover

end Cert.Corr.Block

end
-- ==== Proof.KernelRun.lean ====
/-
  The kernel's run, with its result named.

  After the region the host adds up the whole [8, 8, 128] output array from zero, divides by 1024, negates and
  divides by 2^23.  The array the region leaves is `tile` of the two inputs, so the result buffer ends at
  `kernelScalar (tile X Y)` at its one index, and the two argument arrays end as they began.
-/
import proofs.«123775_j34952443855265_1_alg».proof.Proof.Gen.KernelIdeal.Frame
import Idealize.ShloMosaic.Lib.StableHlo.Run
import Idealize.ShloMosaic.Lib.Pipeline.Value
import proofs.«123775_j34952443855265_1_alg».proof.Proof.KernelBlock

set_option maxRecDepth 16384

noncomputable section

open scoped BigOperators

namespace Cert.Corr.Run

open Idealize.ShloMosaic Idealize.ShloMosaic.TcCoe Idealize.ShloMosaic.ValueIdx Idealize.SL.Sem
open Idealize.ShloMosaic.StableHlo
open Cert.KernelIdeal Cert.KernelIdeal.Gen Cert.Corr

variable (m : (ℓ : Loc nD τ sig) → Buf (Elt Ideal) ℓ) (ρ : Dev nD → PrngReg)

/-- The result buffer after the host lines that follow the region: the tail's four operations applied to the output
    array the region leaves, which is `tile`. -/
theorem tail_eq (c : Dev nD) :
    Pipeline.afterTail₀ cfgs (dats m) 0 (V0 m) [hostOps1] c main_v4
      = fun _ => kernelScalar (tile (V m c main_arg0) (V m c main_arg1)) := by
  unfold Pipeline.afterTail₀
  show StableHlo.after hostOps1 _ (Proc.devRef .tc main_v4) = _
  after_results
  rw [Pipeline.withArrays_arr spec0 launch0.win.arr_inj c _ _ 2, Block.final m c]
  funext i
  show Ideal.div (-(Ideal.div (Ideal.hostReduceAdd Gen.reducesTo_S8x8x128_S_d0_1_2 _ (Ideal.ofBits .f32 0x00000000#32) i)
      (Ideal.ofBits .f32 0x44800000#32))) (Ideal.ofBits .f32 0x4B000000#32) = _
  rw [Ideal.hostReduceAdd_total _ (fun b => b.elim0) _ _ i]
  rfl

/-- THE KERNEL'S RUN: every weakly fair execution terminates with the result at `kernelScalar (tile X Y)` of the
    argument arrays, and the arguments unchanged. -/
theorem run : θ_run defs (onTc (τ := τ) (main (F := Ideal))) ⟨m, fun _ => 0, ρ⟩ fun r => ∀ c : Dev nD,
      r.2.mem ((c.tc : Thread nD τ).loc main_v4)
        = (fun _ => kernelScalar (tile (m ((c.tc : Thread nD τ).loc main_arg0)) (m ((c.tc : Thread nD τ).loc main_arg1))))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
      ⟨((h c).2 main_v4 (Pipeline.mem_restRefs_of main_v4 rfl (by decide))).trans (tail_eq m c),
        ((h c).1 0).trans (((dats m 0 c).arrAt_in 0 rfl _).trans ((A_eq m c 0).trans (V_main_arg0 m c))),
        ((h c).1 1).trans (((dats m 0 c).arrAt_in 1 rfl _).trans ((A_eq m c 1).trans (V_main_arg1 m c)))⟩)
    (run_main m ρ)

end Cert.Corr.Run

end
-- ==== Proof.lean ====
/-
  The certificate: a correlation mean computed without the correlation matrix.

  For inputs X, Y of shape [8, 2048, 1024] the reference returns minus the mean of the batched correlation matrices
  `corr[b, j, l] = ∑ t, X[b, t, j] · Y[b, t, l]`.  The kernel uses that the sum of all entries of an outer product is
  the product of the sums: per batch it adds `(∑ j, X[b, t, j]) · (∑ l, Y[b, t, l])` over time, stores that number over
  an [8, 128] tile, and the host divides the tiles' total by the 1024 copies, negates and divides by 2^23.

  The pieces:
  * `Proof/Law.lean`        the two scalars as functions of the inputs and the law that joins them (distributivity over
                            the reals, carried into the extended reals for inputs with real entries);
  * `Proof/Finite.lean`     the precondition makes every entry a real number;
  * `Proof/RefValue.lean`   the reference's operations, read at the result's index, are `refScalar`;
  * `Proof/KernelPay.lean`  the kernel body's stored value at a place of the tile;
  * `Proof/KernelBlock.lean` from the blocks written back at the eight grid points to the whole output array;
  * `Proof/KernelRun.lean`  the host operations after the region, and the kernel's run with its result named.
  The three frames are the generated frame runs (the reference's is its run with the result dropped); no operation
  was rewritten by the idealization, so its conjunct is `True`.
-/
import proofs.«123775_j34952443855265_1_alg».proof.Defs
import proofs.«123775_j34952443855265_1_alg».proof.Proof.Gen.Kernel
import proofs.«123775_j34952443855265_1_alg».proof.Proof.Gen.Kernel.Skeleton
import proofs.«123775_j34952443855265_1_alg».proof.Proof.Gen.Kernel.Launch
import proofs.«123775_j34952443855265_1_alg».proof.Proof.Gen.Kernel.Points
import proofs.«123775_j34952443855265_1_alg».proof.Proof.Gen.Kernel.Frame
import proofs.«123775_j34952443855265_1_alg».proof.Proof.Gen.KernelIdeal
import proofs.«123775_j34952443855265_1_alg».proof.Proof.Gen.KernelIdeal.Skeleton
import proofs.«123775_j34952443855265_1_alg».proof.Proof.Gen.KernelIdeal.Launch
import proofs.«123775_j34952443855265_1_alg».proof.Proof.Gen.KernelIdeal.Points
import proofs.«123775_j34952443855265_1_alg».proof.Proof.Gen.KernelIdeal.Frame
import proofs.«123775_j34952443855265_1_alg».proof.Proof.Gen.ReferenceIdeal
import proofs.«123775_j34952443855265_1_alg».proof.Proof.Gen.Pre_finite_inputs
import proofs.«123775_j34952443855265_1_alg».proof.Proof.Gen.ReferenceIdeal.Run
import proofs.«123775_j34952443855265_1_alg».proof.Proof.Gen.ReferenceIdeal.Read
import proofs.«123775_j34952443855265_1_alg».proof.Proof.Law
import proofs.«123775_j34952443855265_1_alg».proof.Proof.Finite
import proofs.«123775_j34952443855265_1_alg».proof.Proof.RefValue
import proofs.«123775_j34952443855265_1_alg».proof.Proof.KernelRun
import Idealize.ShloMosaic.Adequacy
import Idealize.ShloMosaic.Init

noncomputable section

namespace Cert.Proof

open Idealize.ShloMosaic Idealize.SL.Sem

/-- The word-level kernel runs, faults nowhere and keeps its arguments: the generated frame. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference's frame is its generated run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the two inputs, whose entries the precondition makes real numbers, the kernel ends at
    `kernelScalar (tile X Y)` and the reference at `refScalar X Y`: one extended real, by distributivity. -/
theorem algebraic : Cert.algebraic_KernelIdeal_ReferenceIdeal := by
  intro m ρ m' ρ' hpre hagree
  refine ⟨_, Cert.Corr.Run.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v3_eq, (hagree c).1, (hagree c).2]
  funext i
  rw [Cert.Corr.Ref.val_main_v3_eq_refScalar]
  obtain ⟨hX, hY⟩ := Cert.Corr.Finite.entries_real _ _ (hpre c)
  exact (Cert.Corr.kernelScalar_tile_eq_refScalar _ _ hX hY).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
